-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S129x128 : Shape := ⟨2, ![129, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S129x128 : S_.BroadcastsInDim S129x128 (![] : Fin 0 → Fin S129x128.rank)
  reducesTo_S129x128_S_d0_1 : S129x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S1 .f32) (main_arg9 : FVec F S129x128 .f32) (main_arg10 : FVec F S128 .f32) (main_arg11 : FVec F S128x128 .f32) (main_arg12 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S129x128 .f32 := Host.absf main_arg9
  let main_cst_14 : FVec F S_ .f32 := constant S_ .f32 0x7F800000#32
  let main_v40 : FVec F S129x128 .f32 := broadcastInDim S129x128 ![] bcast_S_S129x128 main_cst_14
  let main_v41 : IVec S129x128 1 := cmpf .olt main_v39 main_v40
  let main_c_15 : IVec S_ 1 := constantI S_ 1 1#1
  let main_v42 : IVec S_ 1 := (fun x v => Host.reduce IntOp.andi x v reducesTo_S129x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S129x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000x1 .f32) (main_arg3 : FVec F S257x128 .f32) (main_arg4 : FVec F S128 .f32) (main_arg5 : FVec F S128x128 .f32) (main_arg6 : FVec F S128 .f32) (main_arg7 : FVec F S128x1 .f32) (main_arg8 : FVec F S1 .f32) (main_arg9 : FVec F S129x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S129x128 : Shape := ⟨2, ![129, 128]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 26
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S129x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S50000x1, .f32⟩
  | .hbm, ⟨17, _⟩ => ⟨S800000x1, .i32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S128x128, .f32⟩
  | .hbm, ⟨23, _⟩ => ⟨S1x128, .f32⟩
  | .hbm, ⟨24, _⟩ => ⟨S128, .f32⟩
  | .hbm, ⟨25, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  bcast_S_S50000x1 : S_.BroadcastsInDim S50000x1 (![] : Fin 0 → Fin S50000x1.rank)
  bcast_S800000_S800000x1_0 : S800000.BroadcastsInDim S800000x1 (![0] : Fin 1 → Fin S800000x1.rank)
  slices_S129x128_S128x128_0_0 : S129x128.Slices ![0, 0] S128x128
  slices_S129x128_S1x128_128_0 : S129x128.Slices ![128, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  bitsLt_bf16_f32 : FTy.bits .bf16 < FTy.bits .f32
  shapeCasts_S128_S1x128 : S128.ShapeCasts S1x128
  broadcasts_S5000x1_S5000x128 : S5000x1.Broadcasts S5000x128
  broadcasts_S1x128_S5000x128 : S1x128.Broadcasts S5000x128
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S129x128 : Shape := ⟨2, ![129, 128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S800000x257 : Shape := ⟨2, ![800000, 257]⟩
abbrev S1x128 : Shape := ⟨2, ![1, 128]⟩
abbrev S1x1 : Shape := ⟨2, ![1, 1]⟩
abbrev S50000x1 : Shape := ⟨2, ![50000, 1]⟩
abbrev S50000x129 : Shape := ⟨2, ![50000, 129]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S129x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x257, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x1, .f32⟩
  | .hbm, ⟨63, _⟩ => ⟨S1x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x1, .f32⟩
  | .hbm, ⟨68, _⟩ => ⟨S_, .f32⟩
  | .hbm, ⟨69, _⟩ => ⟨S800000x1, .f32⟩
  | .hbm, ⟨70, _⟩ => ⟨S800000x1, .f32⟩
  | .hbm, ⟨71, _⟩ => ⟨S_, .f32⟩
  | .hbm, ⟨72, _⟩ => ⟨S800000x1, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x1, .f32⟩
  | .hbm, ⟨78, _⟩ => ⟨S800000x1, .i32⟩
  | .hbm, ⟨79, _⟩ => ⟨S50000x1, .f32⟩
  | .hbm, ⟨80, _⟩ => ⟨S_, .f32⟩
  | .hbm, ⟨81, _⟩ => ⟨S50000x1, .f32⟩
  | .hbm, ⟨82, _⟩ => ⟨S50000x1, .f32⟩
  | .hbm, ⟨83, _⟩ => ⟨S50000x129, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x1 : S_.BroadcastsInDim S50000x1 (![] : Fin 0 → Fin S50000x1.rank)
  concatenates_S50000x128_S50000x1_S50000x129_d1 : Shape.Concatenates [S50000x128, S50000x1] S50000x129 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1
  dot_S50000x129_S129x128_S50000x128_1_0_0_1_n_n_wf : DotDims.WF S50000x129 S129x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NodeUpdate.lean ====
/-
  The node update, as a function of one node's data.

  A node carries a feature row `x : Fin 128 → EReal` and one aggregate number `a` (the sum of the lengths of the
  edges that start at it, scaled). The update is a two-layer perceptron with a residual connection:

    hidden k  = (∑ j, x j · Wa j k  +  a · wb k)  +  b1 k          -- first layer, 129 inputs: the 128 features and a
    silu y    = y · logistic y
    update c  = x c + ((∑ k, silu (hidden k) · W2 k c) + b2 c)

  The first layer's weight matrix has 129 rows; `Wa` is its first 128 rows and `wb` its last. Multiplying the
  129-entry row "features followed by the aggregate" by the whole matrix is the same number as `hidden` without its
  bias: a sum over 129 terms is the sum of the first 128 and the last, in any additive commutative monoid, so also on
  the extended reals where no term need be finite (`sum_joined`).
-/
import Idealize.ShloMosaic.PureOps.Ideal
import Idealize.ShloMosaic.Lib.ValueIdx
import Mathlib.Algebra.BigOperators.Fin

noncomputable section

namespace Cert.NodeUpdate

open Idealize.ShloMosaic Idealize.ShloMosaic.ValueIdx
open scoped BigOperators

/-- `y · logistic y`, the logistic function being `1 / (1 + e^(-y))` with its limits at the two infinities. -/
def silu (y : EReal) : EReal := y * Ideal.logistic y

/-- The first layer before its activation, at hidden unit `k`. -/
def hidden (x : Fin 128 → EReal) (a : EReal) (Wa : Fin 128 → Fin 128 → EReal) (wb b1 : Fin 128 → EReal)
    (k : Fin 128) : EReal :=
  ((∑ j : Fin 128, x j * Wa j k) + a * wb k) + b1 k

/-- The updated feature `c` of the node. -/
def update (x : Fin 128 → EReal) (a : EReal) (Wa : Fin 128 → Fin 128 → EReal) (wb b1 : Fin 128 → EReal)
    (W2 : Fin 128 → Fin 128 → EReal) (b2 : Fin 128 → EReal) (c : Fin 128) : EReal :=
  x c + ((∑ k : Fin 128, silu (hidden x a Wa wb b1 k) * W2 k c) + b2 c)

/-- A sum over the 129 entries of a joined row, the features then the aggregate, against a column of a 129-row
    matrix: the first 128 terms and the last one. Only the order of a finite sum is used. -/
theorem sum_joined (f : Fin 129 → EReal) :
    ∑ j : Fin 129, f j = (∑ j : Fin 128, f j.castSucc) + f (Fin.last 128) :=
  Fin.sum_univ_castSucc f

/-! ## The update of every node of an array of nodes

`N` nodes, their features an `N × 128` array and their aggregates an `N × 1` column; the weights as arrays. The
same function serves a block of rows of the arrays and the arrays whole. -/

/-- Row `r` of the updated `N × 128` array, at column `c`: the first layer's weights given as its first 128 rows
    `Wa` (a 128 × 128 array) and its last row `wb` (a vector). -/
def rowsSplit {N : Nat} (h : (⟨2, ![N, 128]⟩ : Shape).Idx → EReal) (a : (⟨2, ![N, 1]⟩ : Shape).Idx → EReal)
    (Wa : (⟨2, ![128, 128]⟩ : Shape).Idx → EReal) (wb b1 : (⟨1, ![128]⟩ : Shape).Idx → EReal)
    (W2 : (⟨2, ![128, 128]⟩ : Shape).Idx → EReal) (b2 : (⟨1, ![128]⟩ : Shape).Idx → EReal)
    (r : Fin N) (c : Fin 128) : EReal :=
  update (fun j => h (ix2 r j)) (a (ix2 r (0 : Fin 1))) (fun j k => Wa (ix2 j k)) (fun k => wb (ix1 k))
    (fun k => b1 (ix1 k)) (fun k c => W2 (ix2 k c)) (fun c => b2 (ix1 c)) c

/-- The same with the first layer's weights given whole, as one 129 × 128 array. -/
def rowsWhole {N : Nat} (h : (⟨2, ![N, 128]⟩ : Shape).Idx → EReal) (a : (⟨2, ![N, 1]⟩ : Shape).Idx → EReal)
    (W1 : (⟨2, ![129, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (r : Fin N) (c : Fin 128) : EReal :=
  update (fun j => h (ix2 r j)) (a (ix2 r (0 : Fin 1))) (fun j k => W1 (ix2 j.castSucc k))
    (fun k => W1 (ix2 (Fin.last 128) k)) (fun k => b1 (ix1 k)) (fun k c => W2 (ix2 k c)) (fun c => b2 (ix1 c)) c

/-- The updated array, index by index. -/
def updated {N : Nat} (h : (⟨2, ![N, 128]⟩ : Shape).Idx → EReal) (a : (⟨2, ![N, 1]⟩ : Shape).Idx → EReal)
    (W1 : (⟨2, ![129, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![N, 128]⟩ : Shape).Idx → EReal :=
  fun i => rowsWhole h a W1 b1 W2 b2 (i 0) (i 1)

end Cert.NodeUpdate

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.Payload.lean ====
/-
  What the kernel body computes for one block of 5000 nodes.

  The body loads a block `x0` of 5000 feature rows, the block `x1` of their aggregates (a 5000 × 1 column), the first
  128 rows `x3` of the first layer's weights, that layer's last row `x5` and bias `x7`, and the second layer's
  weights `x21` and bias `x22`, and stores one 5000 × 128 block. Read at row `p` and column `q` of the block, the
  stored value is the node update of row `p`:

    x0 (p, q) + ((∑ k, silu (hidden k) · x21 (k, q)) + x22 q),
    hidden k = ((∑ j, x0 (p, j) · x3 (j, k)) + x1 (p, 0) · x5 k) + x7 k.

  Both matrix products run on values narrowed to bfloat16 and accumulate from zero; on the extended reals the
  narrowing is the identity and the product is the plain sum over the contracted coordinate. The aggregate column is
  stretched over the 128 columns, the three vectors over the 5000 rows.
-/
import proofs.«171697_j24833500905739_1_alg».proof.Proof.Gen.KernelIdeal.Skeleton
import proofs.«171697_j24833500905739_1_alg».proof.Proof.NodeUpdate
import proofs.«171697_j24833500905739_1_alg».proof.Proof.LibPlainDot
import proofs.«171697_j24833500905739_1_alg».proof.Proof.LibRowLayout
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.NodeUpdate
open scoped BigOperators

/-- A 5000 × 1 column, recast to its own shape and stretched over 128 columns, reads at `(p, q)` the column at row `p`. -/
theorem column_apply (v : S5000x1.Idx → EReal) (h0 : S5000x1.ShapeCasts S5000x1) (h : S5000x1.Broadcasts S5000x128)
    (p : Fin 5000) (q : Fin 128) :
    broadcastTo S5000x128 (shapeCast S5000x1 v h0) h (ix2 p q) = v (ix2 p (0 : Fin 1)) := by
  rw [shapeCast_self]
  exact Cert.KernelIdeal.MvnKernel.broadcastTo_a1_ab_apply v h p q

/-- A vector of length 128, recast as a 1 × 128 row and stretched over 5000 rows, reads at `(p, q)` the vector at `q`. -/
theorem row_apply (v : S128.Idx → EReal) (h1 : S128.ShapeCasts S1x128) (h : S1x128.Broadcasts S5000x128)
    (p : Fin 5000) (q : Fin 128) :
    broadcastTo S5000x128 (shapeCast S1x128 v h1) h (ix2 p q) = v (ix1 q) := by
  rw [broadcastTo_1b_ab_apply, shapeCast_a_1a_apply]

/-- The block's matrix product from the zero accumulator, at `(p, q)`: the sum over the contracted coordinate. -/
theorem product_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  refine (Cert.Lib.PlainDot.matmul_zero_apply _ rfl none x w (ix2 p q)).trans ?_
  unfold Cert.Lib.PlainDot.mm
  refine Finset.sum_congr rfl fun k _ => ?_
  have el : Cert.Lib.PlainDot.rowIdx (ix2 p q) k = ix2 p k := funext fun a => by
    match a with
    | ⟨0, _⟩ => rfl
    | ⟨1, _⟩ => rfl
  have er : Cert.Lib.PlainDot.colIdx (ix2 p q) k = ix2 k q := funext fun a => by
    match a with
    | ⟨0, _⟩ => rfl
    | ⟨1, _⟩ => rfl
  rw [el, er]

/-- The logistic function applied to a block reads, at an index, the logistic function of the entry. -/
theorem logistic_apply {s : Shape} {φ : FTy} (a : FVec Ideal s φ) (i : s.Idx) : logistic a i = Ideal.logistic (a i) := rfl

/-- THE BODY'S STORED VALUE at row `p`, column `q` of the block is the node update of row `p`. -/
theorem stored_apply (x0 : Vec Ideal S5000x128 .f32) (x1 : Vec Ideal S5000x1 .f32) (x3 : Vec Ideal S128x128 .f32)
    (x5 x7 : Vec Ideal S128 .f32) (x21 : Vec Ideal S128x128 .f32) (x22 : Vec Ideal S128 .f32) (p : Fin 5000) (q : Fin 128) :
    k0_pay1 x0 x1 x3 x5 x7 x21 x22 (ix2 p q) = rowsSplit (N := 5000) x0 x1 x3 x5 x7 x21 x22 p q := by
  unfold k0_pay1 rowsSplit update Cert.NodeUpdate.hidden silu
  dsimp only
  simp only [addf_apply, mulf_apply, truncf_apply, logistic_apply, product_apply, column_apply, row_apply, shapeCast_self,
    Cert.KernelIdeal.MvnKernel.broadcastTo_a1_ab_apply]

end Cert.KernelIdeal.Body

end
-- ==== Proof.KernelValue.lean ====
/-
  The array the kernel leaves, whole.

  The grid has ten points; point `t` works on nodes `5000·t … 5000·t + 4999`: it reads that block of the feature
  array and of the aggregate column, reads the four weight arrays whole, and writes back that block of the result.
  Row `p` of block `t` is node `5000·t + p`, and the stored value at `(p, q)` is that node's update at column `q`
  (the body's stored value, read at an index). The ten blocks tile the 50000 rows — node `r` lies in block `r / 5000` —
  so the array ends holding the update of every node.
-/
import proofs.«171697_j24833500905739_1_alg».proof.Proof.Gen.KernelIdeal.Value
import proofs.«171697_j24833500905739_1_alg».proof.Proof.Payload

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.NodeUpdate
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- A grid point is one of ten. -/
theorem point_lt (t : Fin cfg0.N) : t.val < 10 := by
  have h := t.isLt
  have e : cfg0.N = 10 := N_0
  omega

/-- The node that row `p` of block `t` is. -/
def node (t : Fin cfg0.N) (p : Fin 5000) : Fin 50000 :=
  ⟨t.val * 5000 + p.val, by have := point_lt t; have := p.isLt; omega⟩

/-- The block each window holds at point `t`, decided over the ten points: the features, the aggregates and the result
    move down with the point; the weights stay. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The array the kernel leaves, as one function of the arrays the region finds: the update of every node. -/
def result (c : Dev nD) : S50000x128.Idx → EReal := fun i =>
  rowsSplit (N := 50000) (V m c main_arg0) (V m c main_v6) (V m c main_v7) (V m c main_v9) (V m c main_arg10)
    (V m c main_arg11) (V m c main_arg12) (i 0) (i 1)

/-! ## The blocks the body reads -/

/-- Row `p` of the feature block at point `t` is the feature row of node `5000·t + p`. -/
theorem features_block (c : Dev nD) (t : Fin cfg0.N) (p : Fin 5000) (j : Fin 128) :
    iblk m c 0 t (ix2 p j) = V m c main_arg0 (ix2 (node t p) j) := by
  obtain ⟨e0, e1, -⟩ := block_index t
  have h : ((cfg0.win 0).blk t).view.emb (ix2 p j) = ix2 (node t p) j := funext fun a => Fin.ext (by
    match a with
    | ⟨0, _⟩ => show win0_0.index t (0 : Fin 2) * 5000 + 1 * p.val = t.val * 5000 + p.val; rw [e0]; omega
    | ⟨1, _⟩ => show win0_0.index t (1 : Fin 2) * 128 + 1 * j.val = j.val; rw [e1]; omega)
  show V m c main_arg0 (((cfg0.win 0).blk t).view.emb (ix2 p j)) = _
  rw [h]

/-- Row `p` of the aggregate block at point `t` is the aggregate of node `5000·t + p`. -/
theorem aggregates_block (c : Dev nD) (t : Fin cfg0.N) (p : Fin 5000) :
    iblk m c 1 t (ix2 p (0 : Fin 1)) = V m c main_v6 (ix2 (node t p) (0 : Fin 1)) := by
  obtain ⟨-, -, e0, e1, -⟩ := block_index t
  have h : ((cfg0.win 1).blk t).view.emb (ix2 p (0 : Fin 1)) = ix2 (node t p) (0 : Fin 1) := funext fun a => Fin.ext (by
    match a with
    | ⟨0, _⟩ => show win0_1.index t (0 : Fin 2) * 5000 + 1 * p.val = t.val * 5000 + p.val; rw [e0]; omega
    | ⟨1, _⟩ => show win0_1.index t (1 : Fin 2) * 1 + 1 * 0 = 0; rw [e1])
  show V m c main_v6 (((cfg0.win 1).blk t).view.emb (ix2 p (0 : Fin 1))) = _
  rw [h]

/-- The first 128 rows of the first layer's weights are read whole at every point. -/
theorem weightsA_block (c : Dev nD) (t : Fin cfg0.N) : iblk m c 2 t = V m c main_v7 := by
  obtain ⟨-, -, -, -, e0, e1, -⟩ := block_index t
  funext y
  have h : ((cfg0.win 2).blk t).view.emb y = y := funext fun a => Fin.ext (by
    match a with
    | ⟨0, _⟩ => show win0_2.index t (0 : Fin 2) * 128 + 1 * (y 0).val = (y 0).val; rw [e0]; omega
    | ⟨1, _⟩ => show win0_2.index t (1 : Fin 2) * 128 + 1 * (y 1).val = (y 1).val; rw [e1]; omega)
  show V m c main_v7 (((cfg0.win 2).blk t).view.emb y) = _
  rw [h]

/-- So is the first layer's last weight row, -/
theorem weightsB_block (c : Dev nD) (t : Fin cfg0.N) : iblk m c 3 t = V m c main_v9 := by
  obtain ⟨-, -, -, -, -, -, e0, -⟩ := block_index t
  funext y
  have h : ((cfg0.win 3).blk t).view.emb y = y := funext fun a => Fin.ext (by
    match a with
    | ⟨0, _⟩ => show win0_3.index t (0 : Fin 1) * 128 + 1 * (y 0).val = (y 0).val; rw [e0]; omega)
  show V m c main_v9 (((cfg0.win 3).blk t).view.emb y) = _
  rw [h]

/-- its bias, -/
theorem bias1_block (c : Dev nD) (t : Fin cfg0.N) : iblk m c 4 t = V m c main_arg10 := by
  obtain ⟨-, -, -, -, -, -, -, e0, -⟩ := block_index t
  funext y
  have h : ((cfg0.win 4).blk t).view.emb y = y := funext fun a => Fin.ext (by
    match a with
    | ⟨0, _⟩ => show win0_4.index t (0 : Fin 1) * 128 + 1 * (y 0).val = (y 0).val; rw [e0]; omega)
  show V m c main_arg10 (((cfg0.win 4).blk t).view.emb y) = _
  rw [h]

/-- the second layer's weights -/
theorem weights2_block (c : Dev nD) (t : Fin cfg0.N) : iblk m c 5 t = V m c main_arg11 := by
  obtain ⟨-, -, -, -, -, -, -, -, e0, e1, -⟩ := block_index t
  funext y
  have h : ((cfg0.win 5).blk t).view.emb y = y := funext fun a => Fin.ext (by
    match a with
    | ⟨0, _⟩ => show win0_5.index t (0 : Fin 2) * 128 + 1 * (y 0).val = (y 0).val; rw [e0]; omega
    | ⟨1, _⟩ => show win0_5.index t (1 : Fin 2) * 128 + 1 * (y 1).val = (y 1).val; rw [e1]; omega)
  show V m c main_arg11 (((cfg0.win 5).blk t).view.emb y) = _
  rw [h]

/-- and its bias. -/
theorem bias2_block (c : Dev nD) (t : Fin cfg0.N) : iblk m c 6 t = V m c main_arg12 := by
  obtain ⟨-, -, -, -, -, -, -, -, -, -, e0, -⟩ := block_index t
  funext y
  have h : ((cfg0.win 6).blk t).view.emb y = y := funext fun a => Fin.ext (by
    match a with
    | ⟨0, _⟩ => show win0_6.index t (0 : Fin 1) * 128 + 1 * (y 0).val = (y 0).val; rw [e0]; omega)
  show V m c main_arg12 (((cfg0.win 6).blk t).view.emb y) = _
  rw [h]

/-- Entry `(p, q)` of the result's block at point `t` is entry `(5000·t + p, q)` of the result. -/
theorem result_block (t : Fin cfg0.N) (p : Fin 5000) (q : Fin 128) :
    ((cfg0.win 7).blk t).view.emb (ix2 p q) = ix2 (node t p) q := by
  obtain ⟨-, -, -, -, -, -, -, -, -, -, -, e0, e1⟩ := block_index t
  exact funext fun a => Fin.ext (by
    match a with
    | ⟨0, _⟩ => show win0_7.index t (0 : Fin 2) * 5000 + 1 * p.val = t.val * 5000 + p.val; rw [e0]; omega
    | ⟨1, _⟩ => show win0_7.index t (1 : Fin 2) * 128 + 1 * q.val = q.val; rw [e1]; omega)

/-! ## What a point writes back -/

/-- The body's stored value at `(p, q)` of point `t`'s block is the result at node `5000·t + p`, column `q`. -/
theorem stored_point (c : Dev nD) (t : Fin cfg0.N) (p : Fin 5000) (q : Fin 128) :
    k0_pay1 (iblk m c 0 t) (iblk m c 1 t) (iblk m c 2 t) (iblk m c 3 t) (iblk m c 4 t) (iblk m c 5 t) (iblk m c 6 t) (ix2 p q)
      = result m c (((cfg0.win 7).blk t).view.emb (ix2 p q)) := by
  rw [stored_apply, result_block, weightsA_block, weightsB_block, bias1_block, weights2_block, bias2_block]
  show _ = rowsSplit (N := 50000) (V m c main_arg0) (V m c main_v6) (V m c main_v7) (V m c main_v9) (V m c main_arg10)
    (V m c main_arg11) (V m c main_arg12) (node t p) q
  unfold rowsSplit
  simp only [features_block, aggregates_block]

/-- The same at any index of the block. -/
theorem stored_index (c : Dev nD) (t : Fin cfg0.N) (y : S5000x128.Idx) :
    k0_pay1 (iblk m c 0 t) (iblk m c 1 t) (iblk m c 2 t) (iblk m c 3 t) (iblk m c 4 t) (iblk m c 5 t) (iblk m c 6 t) y
      = result m c (((cfg0.win 7).blk t).view.emb y) := by
  obtain ⟨p, q, rfl⟩ : ∃ (p : Fin 5000) (q : Fin 128), y = ix2 p q := ⟨y 0, y 1, eq_ix2 y⟩
  exact stored_point m c t p q

/-- WHAT POINT `t` WRITES BACK is block `t` of the result. -/
theorem flushed_eq (c : Dev nD) (t : Fin cfg0.N) :
    (dats m 0 c).flushed 7 t = ((cfg0.win 7).blk t).view.read (Elt Ideal) (result m c) := by
  rw [flushed7]
  unfold out0_7
  rw [View.canon_unit_zero zeros2]
  simp only [View.ld_unit_zero (S := S5000x128) zeros2, View.ld_unit_zero (S := S5000x1) zeros2,
    View.ld_unit_zero (S := S128x128) zeros2, View.ld_unit_zero (S := S128) zeros1]
  funext y
  exact stored_index m c t y

/-! ## The blocks tile the array -/

/-- An index of the array is in point `t`'s block iff each coordinate is in the block's range on its axis. -/
theorem mem_block (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v10).slice (win0_7.rect t)).set ↔ _
  rw [View.set_slice_whole, Rect.mem_set_unit]
  exact Iff.rfl

/-- Node `r` lies in the block of point `r / 5000`. -/
theorem covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have ht : (i 0).val / 5000 < cfg0.N := by rw [show cfg0.N = 10 from N_0]; omega
  refine ⟨⟨(i 0).val / 5000, ht⟩, flush0_7 _, ?_⟩
  rw [mem_block]
  obtain ⟨-, -, -, -, -, -, -, -, -, -, -, e0, e1⟩ := block_index ⟨(i 0).val / 5000, ht⟩
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e1]
    omega

/-- THE ARRAY after the run is the result. -/
theorem final (c : Dev nD) : (dats m 0 c).arrAt 7 cfg0.N = result m c :=
  (dats m 0 c).arrAt_eq_of_cover 7 (result m c) (fun t _ => flushed_eq m c t) covered

/-- The kernel's run with its output array named: the update of every node, of the arrays the region finds. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelIdeal.Whole

end
-- ==== Proof.RefValue.lean ====
/-
  What the reference computes, index by index.

  The reference joins each node's 128 features and its aggregate into a row of 129 entries, multiplies by the whole
  129 × 128 first-layer matrix, adds the bias, applies `y ↦ y · (1 / (1 + e^(-y)))`, multiplies by the second layer's
  matrix, adds its bias and the node's own features. Read at node `r` and column `c`:

  * the joined row at a column below 128 is the feature, at column 128 the aggregate;
  * so the 129-term product is the 128-term product with the first 128 weight rows plus the aggregate times the last
    weight row (a finite sum split at its last term);
  * `1 / (1 + e^(-y))` with the float one is the logistic function of the extended reals, by its definition;
  * hence the result is the node update of row `r` at column `c`.
-/
import proofs.«171697_j24833500905739_1_alg».proof.Proof.Gen.ReferenceIdeal.Read
import proofs.«171697_j24833500905739_1_alg».proof.Proof.NodeUpdate
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.NodeUpdate
open scoped BigOperators

variable (x0 : (⟨S50000x128, .f32⟩ : BufTy).Contents (Elt Ideal)) (x1 : (⟨S2x800000, .i32⟩ : BufTy).Contents (Elt Ideal))
  (x2 : (⟨S800000x1, .f32⟩ : BufTy).Contents (Elt Ideal)) (x9 : (⟨S129x128, .f32⟩ : BufTy).Contents (Elt Ideal))
  (x10 : (⟨S128, .f32⟩ : BufTy).Contents (Elt Ideal)) (x11 : (⟨S128x128, .f32⟩ : BufTy).Contents (Elt Ideal))
  (x12 : (⟨S128, .f32⟩ : BufTy).Contents (Elt Ideal))

/-- The joined row of node `r` at a column `j` below 128 is the node's feature `j`. -/
theorem joined_feature (r : Fin 50000) (j : Fin 128) :
    val_main_v58 (F := Ideal) x0 x1 x2 (ix2 r j.castSucc) = x0 (ix2 r j) := by
  unfold val_main_v58
  exact concatenate_pair_apply_left (t := S50000x129) (s₁ := S50000x128) (s₂ := S50000x1) (1 : Fin 2) x0
    (val_main_v57 (F := Ideal) x1 x2) _ (ix2 r j.castSucc) rfl (ix2 r j) (fun b => by
    match b with
    | ⟨0, _⟩ => rfl
    | ⟨1, _⟩ => rfl)

/-- The joined row of node `r` at its last column, 128, is the node's aggregate. -/
theorem joined_aggregate (r : Fin 50000) :
    val_main_v58 (F := Ideal) x0 x1 x2 (ix2 r (Fin.last 128)) = val_main_v57 (F := Ideal) x1 x2 (ix2 r (0 : Fin 1)) := by
  unfold val_main_v58
  exact concatenate_pair_apply_right (t := S50000x129) (s₁ := S50000x128) (s₂ := S50000x1) (1 : Fin 2) x0
    (val_main_v57 (F := Ideal) x1 x2) _ (ix2 r (Fin.last 128)) rfl rfl (ix2 r (0 : Fin 1)) (fun b hb => by
    match b with
    | ⟨0, _⟩ => rfl
    | ⟨1, _⟩ => exact absurd rfl hb) rfl

/-- The first layer before its activation, at node `r` and hidden unit `k`. -/
theorem hidden_eq (r : Fin 50000) (k : Fin 128) :
    val_main_v62 (F := Ideal) x0 x1 x2 x9 x10 (ix2 r k)
      = hidden (fun j => x0 (ix2 r j)) (val_main_v57 (F := Ideal) x1 x2 (ix2 r (0 : Fin 1)))
          (fun j k => x9 (ix2 j.castSucc k)) (fun k => x9 (ix2 (Fin.last 128) k)) (fun k => x10 (ix1 k)) k := by
  have el : ∀ j : Fin 129, lidx_main_v59 (ix2 r k) j = ix2 r j := fun j => funext fun a => by
    match a with
    | ⟨0, _⟩ => rfl
    | ⟨1, _⟩ => rfl
  have er : ∀ j : Fin 129, ridx_main_v59 (ix2 r k) j = ix2 j k := fun j => funext fun a => by
    match a with
    | ⟨0, _⟩ => rfl
    | ⟨1, _⟩ => rfl
  have eb : idx_main_v60 (idx_main_v61 (ix2 r k)) = ix1 k := funext fun a => by
    match a with
    | ⟨0, _⟩ => rfl
  rw [val_main_v62_apply, val_main_v59_apply, val_main_v61_apply, val_main_v60_apply, eb, sum_joined]
  simp only [el, er, joined_feature, joined_aggregate]
  rfl

/-- The activation: the reference's `y · (1 / (1 + e^(-y)))` is `silu y`. -/
theorem activation_eq (r : Fin 50000) (k : Fin 128) :
    val_main_v69 (F := Ideal) x0 x1 x2 x9 x10 (ix2 r k) = silu (val_main_v62 (F := Ideal) x0 x1 x2 x9 x10 (ix2 r k)) := by
  rw [val_main_v69_apply, val_main_v68_apply, val_main_v67_apply, val_main_cst_11_apply, val_main_v66_apply,
    val_main_v65_apply, val_main_cst_10_apply, val_main_v64_apply, val_main_v63_apply]
  generalize val_main_v62 (F := Ideal) x0 x1 x2 x9 x10 (ix2 r k) = y
  show y * Ideal.div (Ideal.ofBits .f32 0x3F800000#32) (Ideal.ofBits .f32 0x3F800000#32 + Ideal.exp (-y))
    = y * Ideal.div 1 (1 + Ideal.exp (-y))
  rw [Ideal.ofBits_one_f32]

/-- THE REFERENCE'S RESULT is the updated array: entry `(r, c)` is the node update of row `r` at column `c`, the
    aggregates being the reference's own `segment_sum / 100` column. -/
theorem result_eq :
    val_main_v74 (F := Ideal) x0 x1 x2 x9 x10 x11 x12
      = updated (N := 50000) x0 (val_main_v57 (F := Ideal) x1 x2) x9 x10 x11 x12 := by
  funext i
  obtain ⟨r, c, rfl⟩ : ∃ (r : Fin 50000) (c : Fin 128), i = ix2 r c := ⟨i 0, i 1, eq_ix2 i⟩
  have el : ∀ k : Fin 128, lidx_main_v70 (ix2 r c) k = ix2 r k := fun k => funext fun a => by
    match a with
    | ⟨0, _⟩ => rfl
    | ⟨1, _⟩ => rfl
  have er : ∀ k : Fin 128, ridx_main_v70 (ix2 r c) k = ix2 k c := fun k => funext fun a => by
    match a with
    | ⟨0, _⟩ => rfl
    | ⟨1, _⟩ => rfl
  have eb : idx_main_v71 (idx_main_v72 (ix2 r c)) = ix1 c := funext fun a => by
    match a with
    | ⟨0, _⟩ => rfl
  rw [val_main_v74_apply, val_main_v73_apply, val_main_v70_apply, val_main_v72_apply, val_main_v71_apply, eb]
  simp only [el, er, activation_eq, hidden_eq]
  rfl

end Cert.ReferenceIdeal.RefValue

end
-- ==== Proof.Bridge.lean ====
/-
  The kernel's array and the reference's array are one function of the arguments.

  Before the kernel is launched the host computes three arrays from the arguments: the aggregate column
  (`segment_sum` of the edge lengths over the edges' first endpoints, divided by 100), the first 128 rows of the
  first layer's 129 × 128 weight matrix, and its last row as a vector. The aggregate column is computed by the very
  operations the reference applies, so it is the reference's column, and is never opened. Row `j` of the first 128 rows
  is row `j` of the matrix; the vector's entry `k` is the matrix at `(128, k)`. With these, the kernel's result —
  the update of every node with the first layer's weights given in two parts — is the update with the weights given
  whole, which is what the reference computes.
-/
import proofs.«171697_j24833500905739_1_alg».proof.Proof.KernelValue
import proofs.«171697_j24833500905739_1_alg».proof.Proof.RefValue
import Idealize.ShloMosaic.Lib.StableHlo.Run
import Idealize.ShloMosaic.Lib.ValueLayout

noncomputable section

namespace Cert.KernelIdeal.Bridge

open Cert.KernelIdeal Cert.KernelIdeal.Gen Cert.KernelIdeal.Whole
open Idealize.ShloMosaic Idealize.ShloMosaic.TcCoe Idealize.SL.Sem Idealize.ShloMosaic.ValueIdx Cert.NodeUpdate
open Idealize.ShloMosaic.StableHlo

variable (m : (ℓ : Loc nD τ sig) → Buf (Elt Ideal) ℓ)

/-- The aggregate column the region finds is the reference's: the same host operations applied to the same two
    arguments (the edge list and the edge lengths). -/
theorem aggregates_eq (c : Dev nD) :
    (V m c main_v6 : S50000x1.Idx → EReal)
      = Cert.ReferenceIdeal.Read.val_main_v57 (F := Ideal) (m ((c : Thread nD τ).loc main_arg1)) (m ((c : Thread nD τ).loc main_arg2)) := by
  dsimp only [Gen.V, Gen.hostOps0]
  after_results
  rfl

/-- The first 128 rows of the first layer's weights, as the region finds them: row `j` of the 129-row matrix. -/
theorem weightsA_apply (c : Dev nD) (j k : Fin 128) :
    (V m c main_v7 : S128x128.Idx → EReal) (ix2 j k) = m ((c : Thread nD τ).loc main_arg9) (ix2 j.castSucc k) := by
  have e : (V m c main_v7 : S128x128.Idx → EReal)
      = extractStridedSlice S128x128 ![0, 0] (m ((c : Thread nD τ).loc main_arg9)) Facts₀.slices_S129x128_S128x128_0_0 := by
    dsimp only [Gen.V, Gen.hostOps0]
    after_results
  rw [e]
  exact slice2_axis0_apply 0 _ _ j k j.castSucc (by show j.val = 0 + j.val; omega)

/-- The last row of the first layer's weights, as the region finds it: the matrix at row 128. -/
theorem weightsB_apply (c : Dev nD) (k : Fin 128) :
    (V m c main_v9 : S128.Idx → EReal) (ix1 k) = m ((c : Thread nD τ).loc main_arg9) (ix2 (Fin.last 128) k) := by
  have e : (V m c main_v9 : S128.Idx → EReal)
      = shapeCast S128 (extractStridedSlice S1x128 ![128, 0] (m ((c : Thread nD τ).loc main_arg9))
          Facts₀.slices_S129x128_S1x128_128_0) Facts₀.shapeCasts_S1x128_S128 := by
    dsimp only [Gen.V, Gen.hostOps0]
    after_results
    rfl
  rw [e, shapeCast_1a_a_apply]
  exact slice2_axis0_apply 128 _ _ (0 : Fin 1) k (Fin.last 128) (by show 128 = 128 + 0; rfl)

/-- THE KERNEL'S RESULT is the updated array of the arguments, the aggregates being the reference's column. -/
theorem result_eq (c : Dev nD) :
    result m c = updated (N := 50000) (m ((c : Thread nD τ).loc main_arg0))
      (Cert.ReferenceIdeal.Read.val_main_v57 (F := Ideal) (m ((c : Thread nD τ).loc main_arg1)) (m ((c : Thread nD τ).loc main_arg2)))
      (m ((c : Thread nD τ).loc main_arg9)) (m ((c : Thread nD τ).loc main_arg10))
      (m ((c : Thread nD τ).loc main_arg11)) (m ((c : Thread nD τ).loc main_arg12)) := by
  have eA : (fun j k : Fin 128 => (V m c main_v7 : S128x128.Idx → EReal) (ix2 j k))
      = fun j k => m ((c : Thread nD τ).loc main_arg9) (ix2 j.castSucc k) :=
    funext fun j => funext fun k => weightsA_apply m c j k
  have eB : (fun k : Fin 128 => (V m c main_v9 : S128.Idx → EReal) (ix1 k))
      = fun k => m ((c : Thread nD τ).loc main_arg9) (ix2 (Fin.last 128) k) :=
    funext fun k => weightsB_apply m c k
  funext i
  obtain ⟨r, q, rfl⟩ : ∃ (r : Fin 50000) (q : Fin 128), i = ix2 r q := ⟨i 0, i 1, eq_ix2 i⟩
  show rowsSplit (N := 50000) (V m c main_arg0) (V m c main_v6) (V m c main_v7) (V m c main_v9) (V m c main_arg10)
      (V m c main_arg11) (V m c main_arg12) r q
    = rowsWhole (N := 50000) (m ((c : Thread nD τ).loc main_arg0))
      (Cert.ReferenceIdeal.Read.val_main_v57 (F := Ideal) (m ((c : Thread nD τ).loc main_arg1)) (m ((c : Thread nD τ).loc main_arg2)))
      (m ((c : Thread nD τ).loc main_arg9)) (m ((c : Thread nD τ).loc main_arg10))
      (m ((c : Thread nD τ).loc main_arg11)) (m ((c : Thread nD τ).loc main_arg12)) r q
  unfold rowsSplit rowsWhole
  rw [eA, eB, V_main_arg0, V_main_arg10, V_main_arg11, V_main_arg12, aggregates_eq]

end Cert.KernelIdeal.Bridge

end
-- ==== Proof.lean ====
/-
  A graph-network node update: the kernel against its reference, on the extended reals.

  Both programs take node features `h` (50000 × 128), an edge list, edge lengths and the weights of a two-layer
  perceptron, and return

      h + (silu ([h | agg] · W1 + b1) · W2 + b2),    agg = segment_sum (lengths, first endpoints) / 100,
      silu y = y · logistic y,

  where `[h | agg]` is each node's 128 features followed by its aggregate, and `W1` has 129 rows. (The reference
  also evaluates an edge perceptron whose value it discards; nothing of the result depends on it.)

  The reference forms the joined 50000 × 129 array and multiplies it by `W1`. The kernel never joins: the host cuts
  `W1` into its first 128 rows and its last row, and a grid of ten points each takes 5000 nodes and computes
  `h · W1[:128] + agg · W1[128] + b1`, then the activation, the second product and the residual sum, for its block.
  The two agree entry by entry because a sum of 129 terms is the sum of its first 128 and its last — true of any
  finite sum on the extended reals, so no finiteness of the inputs is used —, because the reference's
  `1 / (1 + e^(-y))` with the float one is the logistic function by definition, because a matrix product from a zero
  accumulator on values narrowed to bfloat16 is, on the extended reals, the plain sum over the contracted coordinate,
  and because the aggregate column is computed by the same host operations on both sides.

  Modules: `NodeUpdate` states the update of one node and of an array of nodes; `Payload` reads the kernel body's
  stored block at an index; `KernelValue` puts the ten blocks together; `RefValue` reads the reference's result at an
  index; `Bridge` expresses the arrays the host prepares for the kernel by the arguments. The three frames are the
  generated ones (the reference's is its generated run with the result dropped); nothing was rewritten by the
  idealization, so there is nothing for it to preserve.
-/
import proofs.«171697_j24833500905739_1_alg».proof.Defs
import proofs.«171697_j24833500905739_1_alg».proof.Proof.Gen.Kernel
import proofs.«171697_j24833500905739_1_alg».proof.Proof.Gen.Kernel.Skeleton
import proofs.«171697_j24833500905739_1_alg».proof.Proof.Gen.Kernel.Launch
import proofs.«171697_j24833500905739_1_alg».proof.Proof.Gen.Kernel.Points
import proofs.«171697_j24833500905739_1_alg».proof.Proof.Gen.Kernel.Frame
import proofs.«171697_j24833500905739_1_alg».proof.Proof.Gen.KernelIdeal
import proofs.«171697_j24833500905739_1_alg».proof.Proof.Gen.KernelIdeal.Skeleton
import proofs.«171697_j24833500905739_1_alg».proof.Proof.Gen.KernelIdeal.Launch
import proofs.«171697_j24833500905739_1_alg».proof.Proof.Gen.KernelIdeal.Points
import proofs.«171697_j24833500905739_1_alg».proof.Proof.Gen.KernelIdeal.Frame
import proofs.«171697_j24833500905739_1_alg».proof.Proof.Gen.ReferenceIdeal
import proofs.«171697_j24833500905739_1_alg».proof.Proof.Gen.Pre_finite_inputs
import proofs.«171697_j24833500905739_1_alg».proof.Proof.Gen.KernelIdeal.Value
import proofs.«171697_j24833500905739_1_alg».proof.Proof.Gen.ReferenceIdeal.Run
import proofs.«171697_j24833500905739_1_alg».proof.Proof.Gen.ReferenceIdeal.Read
import proofs.«171697_j24833500905739_1_alg».proof.Proof.Bridge
import Idealize.ShloMosaic.Adequacy
import Idealize.ShloMosaic.Init

noncomputable section

namespace Cert.Proof

open Idealize.ShloMosaic Idealize.SL.Sem Idealize.ShloMosaic.TcCoe

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the updated array of the arguments. -/
theorem algebraic : Cert.algebraic_KernelIdeal_ReferenceIdeal := by
  intro m ρ m' ρ' _ hagree
  refine ⟨fun c => Cert.NodeUpdate.updated (N := 50000) (m ((c : Thread Cert.KernelIdeal.nD Cert.KernelIdeal.τ).loc Cert.KernelIdeal.main_arg0))
      (Cert.ReferenceIdeal.Read.val_main_v57 (F := Ideal) (m ((c : Thread Cert.KernelIdeal.nD Cert.KernelIdeal.τ).loc Cert.KernelIdeal.main_arg1))
        (m ((c : Thread Cert.KernelIdeal.nD Cert.KernelIdeal.τ).loc Cert.KernelIdeal.main_arg2)))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11))
      (m ((c : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Bridge.result_eq m c), (h c).2⟩) (Cert.KernelIdeal.Whole.run m ρ)
  · refine (θ_run Cert.ReferenceIdeal.defs _ _).mono (fun _ h c => ⟨?_, (h c).2⟩)
      (Cert.ReferenceIdeal.Value.run (F := Ideal) m' ρ')
    obtain ⟨e0, e1, e2, -, -, -, -, -, -, e9, e10, e11, e12⟩ := hagree c
    rw [(h c).1, Cert.ReferenceIdeal.Read.val_main_v74_eq, Cert.ReferenceIdeal.RefValue.result_eq, e0, e1, e2, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
